-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  main_v3
-- ==== Kernel.lean ====
abbrev S1048576x128 : Shape := ⟨2, ![1048576, 128]⟩
abbrev S1048576x129 : Shape := ⟨2, ![1048576, 129]⟩
abbrev S4096x128 : Shape := ⟨2, ![4096, 128]⟩
abbrev S4096x129 : Shape := ⟨2, ![4096, 129]⟩
abbrev S4096 : Shape := ⟨1, ![4096]⟩
abbrev S4096x1 : Shape := ⟨2, ![4096, 1]⟩

abbrev nBuf : Space → Nat
  | .hbm => 2
  | .vmem => 4
  | .smem => 0
  | _ => 0

abbrev bufTy : (tb : Table) → Fin (tcTables nBuf tb) → BufTy
  | .hbm, ⟨0, _⟩ => ⟨S1048576x128, .f32⟩
  | .hbm, ⟨1, _⟩ => ⟨S1048576x129, .f32⟩
  | .local _ .vmem, ⟨0, _⟩ => ⟨S4096x128, .f32⟩
  | .local _ .vmem, ⟨1, _⟩ => ⟨S4096x128, .f32⟩
  | .local _ .vmem, ⟨2, _⟩ => ⟨S4096x129, .f32⟩
  | .local _ .vmem, ⟨3, _⟩ => ⟨S4096x129, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x129 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  concatenates_S4096x128_S4096x1_S4096x129_d1 : Shape.Concatenates [S4096x128, S4096x1] S4096x129 1
  inb_S4096x129_S4096x129_0_0 : ∀ a, (![0, 0] : Fin 2 → Nat) a + S4096x129.size a ≤ S4096x129.size a
  h_S4096x129 : 0 < S4096x129.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x129.size a ≤ S1048576x129.size a
  hwx0_1 : ∀ i : grid0.Coords, EltTy.bits .f32 = 32 ∨ (Rect.block (s := S1048576x129) S4096x129.size (cc0_transform_1 i) (hinb0_1 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x129.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S_ : Shape := ⟨0, ![]⟩
abbrev S1048576 : Shape := ⟨1, ![1048576]⟩
abbrev S1048576x1 : Shape := ⟨2, ![1048576, 1]⟩
abbrev S1048576x129 : Shape := ⟨2, ![1048576, 129]⟩

abbrev nBuf : Space → Nat
  | .hbm => 19
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S_, .f32⟩
  | .hbm, ⟨3, _⟩ => ⟨S1048576, .f32⟩
  | .hbm, ⟨4, _⟩ => ⟨S1048576x1, .f32⟩
  | .hbm, ⟨5, _⟩ => ⟨S_, .f32⟩
  | .hbm, ⟨6, _⟩ => ⟨S1048576x1, .f32⟩
  | .hbm, ⟨7, _⟩ => ⟨S1048576x1, .f32⟩
  | .hbm, ⟨8, _⟩ => ⟨S1048576x1, .f32⟩
  | .hbm, ⟨9, _⟩ => ⟨S_, .f32⟩
  | .hbm, ⟨10, _⟩ => ⟨S1048576x1, .f32⟩
  | .hbm, ⟨11, _⟩ => ⟨S1048576x1, .f32⟩
  | .hbm, ⟨12, _⟩ => ⟨S1048576x1, .f32⟩
  | .hbm, ⟨13, _⟩ => ⟨S_, .f32⟩
  | .hbm, ⟨14, _⟩ => ⟨S1048576x1, .f32⟩
  | .hbm, ⟨15, _⟩ => ⟨S1048576x1, .f32⟩
  | .hbm, ⟨16, _⟩ => ⟨S1048576x128, .f32⟩
  | .hbm, ⟨17, _⟩ => ⟨S1048576x128, .f32⟩
  | .hbm, ⟨18, _⟩ => ⟨S1048576x129, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x128_0_1 : S1048576x1.BroadcastsInDim S1048576x128 (![0, 1] : Fin 2 → Fin S1048576x128.rank)
  concatenates_S1048576x128_S1048576x1_S1048576x129_d1 : Shape.Concatenates [S1048576x128, S1048576x1] S1048576x129 1

variable [Facts₀]

class Facts : Prop extends Facts₀ where

variable [Facts]
-- ==== Proof.RowMap.lean ====
/-
  The map both programs compute, row by row.

  For an array `X` of rows `x ∈ ℝ¹²⁸` (here: extended reals), let `|x|² = ∑ₖ xₖ²` and
  `s = -(1 - |x|²) / (1 + |x|²)`. The result row has 129 entries: `(1 - s)·xₖ` in columns `k < 128`
  and `s` in column 128 — the point `x` of the plane carried to the unit sphere by the inverse
  stereographic projection, `(1 - s)·(x, 0) + s·(0, 1)`.

  The definitions are over a variable number of rows, so that the same function describes a block of
  4096 rows and the whole array of 1048576 rows; a row of the result depends on that row of `X` only
  (`lift_of_rows`), which is what lets blocks of rows be computed independently.
-/
import Idealize.ShloMosaic.PureOps.Ideal
import Idealize.ShloMosaic.Lib.ValueIdx

noncomputable section

namespace Cert.RowMap

open Idealize.ShloMosaic Idealize.ShloMosaic.ValueIdx
open scoped BigOperators

/-! ## The row map -/

/-- The float literal `1.0` as an extended real. Both programs carry the same word, so it is never evaluated. -/
def one : EReal := Ideal.ofBits .f32 0x3F800000#32

/-- The squared norm of row `r`: the sum of the squares of its 128 entries. -/
def rowsq {R : Nat} (X : (⟨2, ![R, 128]⟩ : Shape).Idx → EReal) (r : Fin R) : EReal :=
  ∑ k : Fin 128, X (ix2 r k) * X (ix2 r k)

/-- The coefficient of row `r`: `s = -(1 - |x|²) / (1 + |x|²)`. -/
def coef {R : Nat} (X : (⟨2, ![R, 128]⟩ : Shape).Idx → EReal) (r : Fin R) : EReal :=
  Ideal.div (-(one - rowsq X r)) (one + rowsq X r)

/-- The result: row `r` is `((1 - s)·x, s)`, with `x` row `r` of `X` and `s` its coefficient. -/
def lift {R : Nat} (X : (⟨2, ![R, 128]⟩ : Shape).Idx → EReal) : (⟨2, ![R, 129]⟩ : Shape).Idx → EReal := fun i =>
  if h : (i 1).val < 128 then (one - coef X (i 0)) * X (ix2 (i 0) ⟨(i 1).val, h⟩) else coef X (i 0)

theorem lift_apply {R : Nat} (X : (⟨2, ![R, 128]⟩ : Shape).Idx → EReal) (r : Fin R) (q : Fin 129) :
    lift X (ix2 r q) = if h : q.val < 128 then (one - coef X r) * X (ix2 r ⟨q.val, h⟩) else coef X r := rfl

/-- A row of the result depends only on the same row of the argument: if row `p` of `Xb` is row `r` of `X`,
    then row `p` of `lift Xb` is row `r` of `lift X`. -/
theorem lift_of_rows {R N : Nat} (Xb : (⟨2, ![R, 128]⟩ : Shape).Idx → EReal) (X : (⟨2, ![N, 128]⟩ : Shape).Idx → EReal)
    (p : Fin R) (r : Fin N) (h : ∀ k : Fin 128, Xb (ix2 p k) = X (ix2 r k)) (q : Fin 129) :
    lift Xb (ix2 p q) = lift X (ix2 r q) := by
  have hs : rowsq Xb p = rowsq X r := Finset.sum_congr rfl fun k _ => by rw [h k]
  have hc : coef Xb p = coef X r := by unfold coef; rw [hs]
  rw [lift_apply, lift_apply, hc]
  split
  · rw [h]
  · rfl

end Cert.RowMap

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.KernelRows.lean ====
/-
  The kernel's body computes the row map of its block of 4096 rows.

  The body squares the block, sums each row over its 128 lanes, and keeps the sums as a column; from the column it
  forms `1 - |x|²`, negates it as `0 - ·`, divides by `1 + |x|²`, giving the column `s`; it broadcasts `1 - s` along the
  rows, multiplies with the block, and sets the column `s` beside the 128 columns. On the extended reals `0 - a = -a`
  for every `a`, so no finiteness is needed.
-/
import proofs.«176969_j77936476553267_1_alg».proof.Proof.Gen.KernelIdeal.Skeleton
import proofs.«176969_j77936476553267_1_alg».proof.Proof.RowMap
import proofs.«176969_j77936476553267_1_alg».proof.Proof.LibColumns
import Idealize.ShloMosaic.PureOps.Ideal.Laws

noncomputable section

namespace Cert.KernelRows

open Cert.KernelIdeal Cert.KernelIdeal.Gen
open Idealize.ShloMosaic Idealize.ShloMosaic.ValueIdx Cert.RowMap Cert.LibColumns
open scoped BigOperators

/-- The lane sum of the squared block at row `p` is the squared norm of row `p`. -/
theorem rowsq_eq (x0 : FVec Ideal S4096x128 .f32) (hr : S4096x128.Reduces [1] S4096) (hφ : FKind.Formats .f32)
    (hacc : (0x00000000#32 : BitVec 32) = FKind.add.neutral .f32 hφ) (p : Fin 4096) :
    multiReduction .add [1] S4096 (mulf x0 x0) 0x00000000#32 hr hφ hacc (ix1 p) = rowsq x0 p := by
  refine (Ideal.multiReduction_add_single (mulf x0 x0) _ hr hφ hacc (ix1 p)).trans ?_
  show ∑ k : Fin 128, _ = ∑ k : Fin 128, x0 (ix2 p k) * x0 (ix2 p k)
  refine Finset.sum_congr rfl fun k _ => ?_
  have e : hr.lift (ix1 p) k = ix2 p k := funext fun a => Fin.ext (by match a with | ⟨0, _⟩ => rfl | ⟨1, _⟩ => rfl)
  rw [e]
  rfl

/-- The body's coefficient column: at row `p` it is `s = -(1 - |x|²) / (1 + |x|²)`, the negation computed as `0 - ·`. -/
theorem col_eq (x0 : FVec Ideal S4096x128 .f32) (hr : S4096x128.Reduces [1] S4096) (hφ : FKind.Formats .f32)
    (hacc : (0x00000000#32 : BitVec 32) = FKind.add.neutral .f32 hφ) (hc : S4096.ShapeCasts S4096x1) (p : Fin 4096) (u : Fin 1) :
    divf (subf (broadcast S4096x1 (Scalar.ofBits (F := Ideal) .f32 0x00000000#32))
          (subf (broadcast S4096x1 (Scalar.ofBits (F := Ideal) .f32 0x3F800000#32))
            (shapeCast S4096x1 (multiReduction .add [1] S4096 (mulf x0 x0) 0x00000000#32 hr hφ hacc) hc)))
        (addf (broadcast S4096x1 (Scalar.ofBits (F := Ideal) .f32 0x3F800000#32))
          (shapeCast S4096x1 (multiReduction .add [1] S4096 (mulf x0 x0) 0x00000000#32 hr hφ hacc) hc))
      (ix2 p u) = coef x0 p := by
  have hs : shapeCast S4096x1 (multiReduction .add [1] S4096 (mulf x0 x0) 0x00000000#32 hr hφ hacc) hc (ix2 p u) = rowsq x0 p :=
    (shapeCast_a_a1_apply _ hc p u).trans (rowsq_eq x0 hr hφ hacc p)
  show Ideal.div (Ideal.ofBits .f32 0x00000000#32 - (Ideal.ofBits .f32 0x3F800000#32
        - shapeCast S4096x1 (multiReduction .add [1] S4096 (mulf x0 x0) 0x00000000#32 hr hφ hacc) hc (ix2 p u)))
      (Ideal.ofBits .f32 0x3F800000#32 + shapeCast S4096x1 (multiReduction .add [1] S4096 (mulf x0 x0) 0x00000000#32 hr hφ hacc) hc (ix2 p u))
    = _
  rw [hs, Ideal.ofBits_zero_f32, zero_sub]
  rfl

/-- The body's stored value is the row map of the block it loaded. -/
theorem payload_eq (x0 : Vec Ideal S4096x128 .f32) : k0_pay1 (F := Ideal) x0 = lift (R := 4096) x0 := by
  funext j
  obtain ⟨p, q, rfl⟩ : ∃ (p : Fin 4096) (q : Fin 129), j = ix2 p q := ⟨j 0, j 1, eq_ix2 j⟩
  unfold k0_pay1
  refine (concat_col_apply (n := 128) rfl _ _ _ p q).trans ?_
  rw [lift_apply]
  split
  · next hq =>
    refine congrArg (· * x0 (ix2 p (⟨q.val, hq⟩ : Fin 128))) ?_
    refine (broadcastTo_a1_ab_apply _ _ p (⟨q.val, hq⟩ : Fin 128)).trans ?_
    exact congrArg (one - ·) (col_eq x0 _ _ _ _ p 0)
  · exact col_eq x0 _ _ _ _ p 0

end Cert.KernelRows

end
-- ==== Proof.ReferenceRows.lean ====
/-
  The reference computes the row map of its whole argument array.

  Its operations, read at an index one at a time: the squared norms of the rows (a sum over the 128 columns from the
  initial value 0), kept as a column; `1 - |x|²` negated; `1 + |x|²`; their quotient `s`, a column; `1 - s` broadcast
  along the rows and multiplied with `x`; and the column `s` set beside those 128 columns.
-/
import proofs.«176969_j77936476553267_1_alg».proof.Proof.Gen.ReferenceIdeal.Read
import proofs.«176969_j77936476553267_1_alg».proof.Proof.RowMap
import proofs.«176969_j77936476553267_1_alg».proof.Proof.LibColumns

noncomputable section

namespace Cert.ReferenceRows

open Cert.ReferenceIdeal Cert.ReferenceIdeal.Gen Cert.ReferenceIdeal.Read
open Idealize.ShloMosaic Idealize.ShloMosaic.ValueIdx Cert.RowMap Cert.LibColumns
open scoped BigOperators

/-- The reference's sum of squares of row `r`: the initial value is zero, and the summand at `k` is the square of
    the entry at `(r, k)`. -/
theorem rowsq_eq (x0 : FVec Ideal S1048576x128 .f32) (r : Fin 1048576) :
    val_main_v1 (F := Ideal) x0 (ix1 r) = rowsq x0 r := by
  rw [val_main_v1_apply, val_main_cst_apply]
  show Ideal.ofBits .f32 0x00000000#32 + ∑ k : Fin 128, val_main_v0 (F := Ideal) x0 (idx_main_v1 (ix1 r) k) = _
  rw [Ideal.ofBits_zero_f32, zero_add]
  refine Finset.sum_congr rfl fun k _ => ?_
  have e : idx_main_v1 (ix1 r) k = ix2 r k := funext fun a => Fin.ext (by match a with | ⟨0, _⟩ => rfl | ⟨1, _⟩ => rfl)
  rw [val_main_v0_apply, e]
  rfl

/-- The reference's coefficient column: at row `r` it is `s = -(1 - |x|²) / (1 + |x|²)`. -/
theorem col_eq (x0 : FVec Ideal S1048576x128 .f32) (r : Fin 1048576) (u : Fin 1) :
    val_main_v8 (F := Ideal) x0 (ix2 r u) = coef x0 r := by
  have e2 : idx_main_v2 (ix2 r u) = ix1 r := funext fun a => Fin.ext (by match a with | ⟨0, _⟩ => rfl)
  rw [val_main_v8_apply, val_main_v5_apply, val_main_v7_apply, val_main_v4_apply, val_main_v3_apply, val_main_v6_apply,
    val_main_v2_apply, val_main_cst_0_apply, val_main_cst_1_apply, e2, rowsq_eq]
  rfl

/-- The reference's result is the row map of its argument. -/
theorem result_eq (x0 : FVec Ideal S1048576x128 .f32) :
    val_main_v13 (F := Ideal) x0 = lift (R := 1048576) x0 := by
  funext j
  obtain ⟨r, q, rfl⟩ : ∃ (r : Fin 1048576) (q : Fin 129), j = ix2 r q := ⟨j 0, j 1, eq_ix2 j⟩
  unfold val_main_v13
  refine (concat_col_apply (n := 128) rfl _ _ _ r q).trans ?_
  rw [lift_apply]
  split
  · next hq =>
    have e11 : idx_main_v11 (ix2 r (⟨q.val, hq⟩ : Fin 128)) = ix2 r (0 : Fin 1) :=
      funext fun a => Fin.ext (by match a with | ⟨0, _⟩ => rfl | ⟨1, _⟩ => rfl)
    rw [val_main_v12_apply, val_main_v11_apply, e11, val_main_v10_apply, val_main_v9_apply, val_main_cst_2_apply, col_eq]
    rfl
  · exact col_eq x0 r 0

end Cert.ReferenceRows

end
-- ==== Proof.BlocksToArray.lean ====
/-
  From blocks of rows to the whole array.

  The grid has 256 points. Point `t` loads rows `4096 t … 4096 t + 4095` of the argument (all 128 columns) and writes
  back rows `4096 t … 4096 t + 4095` of the result (all 129 columns). A row of the row map depends on that row of the
  argument only, so what point `t` writes — the row map of the block it loaded — is block `t` of the row map of the WHOLE
  argument. The 256 blocks cover the result array (row `r` lies in block `r / 4096`), so the array ends holding the row
  map of the argument.
-/
import proofs.«176969_j77936476553267_1_alg».proof.Proof.Gen.KernelIdeal.Value
import proofs.«176969_j77936476553267_1_alg».proof.Proof.RowMap
import proofs.«176969_j77936476553267_1_alg».proof.Proof.KernelRows

noncomputable section

namespace Cert.KernelBlocks

open Cert.KernelIdeal Cert.KernelIdeal.Gen Idealize.ShloMosaic Idealize.ShloMosaic.TcCoe Idealize.SL.Sem
open Idealize.ShloMosaic.Pipeline (Dat)
open Idealize.ShloMosaic.ValueIdx Cert.RowMap

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 256 points: at point `t` both windows' block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The row map of a block of rows of `X` (the rows from `b` on) is that block of rows of the row map of `X`. -/
theorem lift_block (X : (⟨2, ![1048576, 128]⟩ : Shape).Idx → EReal) (Xb : (⟨2, ![4096, 128]⟩ : Shape).Idx → EReal) (b : Nat)
    (hXb : ∀ (p : Fin 4096) (r : Fin 1048576) (k : Fin 128), r.val = b + p.val → Xb (ix2 p k) = X (ix2 r k))
    (y : (⟨2, ![4096, 129]⟩ : Shape).Idx) (i : (⟨2, ![1048576, 129]⟩ : Shape).Idx)
    (h0 : (i 0).val = b + (y 0).val) (h1 : (i 1).val = (y 1).val) :
    lift Xb y = lift X i :=
  calc lift Xb y = lift Xb (ix2 (y 0) (y 1)) := congrArg (lift Xb) (eq_ix2 y)
    _ = lift X (ix2 (i 0) (y 1)) := lift_of_rows Xb X (y 0) (i 0) (fun k => hXb (y 0) (i 0) k h0) (y 1)
    _ = lift X (ix2 (i 0) (i 1)) := congrArg (fun q : Fin 129 => lift X (ix2 (i 0) q)) (Fin.ext h1.symm)
    _ = lift X i := congrArg (lift X) (eq_ix2 i).symm

/-- The input window's block at point `t` holds rows `4096 t + p` of the argument. -/
theorem iblk_apply (c : Dev nD) (t : Fin cfg0.N) (p : Fin 4096) (r : Fin 1048576) (k : Fin 128) (hr : r.val = t.val * 4096 + p.val) :
    (iblk m c 0 t : Vec Ideal S4096x128 .f32) (ix2 p k) = (V m c main_arg0 : S1048576x128.Idx → EReal) (ix2 r k) := by
  obtain ⟨e0, e1, -, -⟩ := idx_facts t
  unfold iblk
  rw [View.read_apply]
  show (V m c main_arg0 : S1048576x128.Idx → EReal) _ = _
  refine congrArg (V m c main_arg0 : S1048576x128.Idx → EReal) (funext fun a => Fin.ext ?_)
  match a with
  | ⟨0, _⟩ => show win0_0.index t 0 * 4096 + 1 * p.val = r.val; rw [e0, hr]; omega
  | ⟨1, _⟩ => show win0_0.index t 1 * 128 + 1 * k.val = k.val; rw [e1]; omega

/-- WHAT POINT `t` WRITES BACK is block `t` of the row map of the whole argument. -/
theorem flushed_eq (c : Dev nD) (t : Fin cfg0.N) :
    (dats m 0 c).flushed 1 t = ((cfg0.win 1).blk t).view.read (Elt Ideal) (lift (R := 1048576) (V m c main_arg0)) := by
  rw [Cert.KernelIdeal.Value.flushed1]
  unfold out0_1
  rw [View.canon_unit_zero hz]
  simp only [View.ld_unit_zero (S := S4096x128) hz]
  rw [Cert.KernelRows.payload_eq]
  obtain ⟨-, -, e0, e1⟩ := idx_facts t
  funext y
  show lift (R := 4096) (iblk m c 0 t) y = lift (R := 1048576) (V m c main_arg0) (((cfg0.win 1).blk t).view.emb y)
  refine lift_block (V m c main_arg0) (iblk m c 0 t) (t.val * 4096) (fun p r k hr => iblk_apply m c t p r k hr) y
    (((cfg0.win 1).blk t).view.emb y) ?_ ?_
  · show win0_1.index t 0 * 4096 + 1 * (y 0).val = t.val * 4096 + (y 0).val
    rw [e0]; omega
  · show win0_1.index t 1 * 129 + 1 * (y 1).val = (y 1).val
    rw [e1]; omega

/-- An index of the result array is in point `t`'s block iff each coordinate is in the block's range on its axis. -/
theorem mem_blk (t : Fin cfg0.N) (i : S1048576x129.Idx) :
    i ∈ ((cfg0.win 1).blk t).view.set ↔ ∀ a : Fin 2, win0_1.index t a * S4096x129.size a ≤ (i a).val
      ∧ (i a).val < win0_1.index t a * S4096x129.size a + S4096x129.size a := by
  show i ∈ ((View.whole main_v0).slice (win0_1.rect t)).set ↔ _
  rw [View.set_slice_whole, Rect.mem_set_unit]
  exact Iff.rfl

/-- Every index of the result array lies in some point's block: row `r` in the block of point `r / 4096`. -/
theorem cover (i : S1048576x129.Idx) :
    ∃ t : Fin cfg0.N, (cfg0.win 1).flush t = true ∧ i ∈ ((cfg0.win 1).blk t).view.set := by
  have hi0 : (i 0).val < 1048576 := (i 0).isLt
  have hi1 : (i 1).val < 129 := (i 1).isLt
  have hN : cfg0.N = 256 := N_0
  obtain ⟨t, ht⟩ : ∃ t : Fin cfg0.N, t.val = (i 0).val / 4096 := ⟨⟨(i 0).val / 4096, by rw [hN]; omega⟩, rfl⟩
  obtain ⟨-, -, e0, e1⟩ := idx_facts t
  refine ⟨t, flush0_1 t, ?_⟩
  rw [mem_blk]
  intro a
  match a with
  | ⟨0, _⟩ =>
    show win0_1.index t 0 * 4096 ≤ (i 0).val ∧ (i 0).val < win0_1.index t 0 * 4096 + 4096
    rw [e0, ht]; omega
  | ⟨1, _⟩ =>
    show win0_1.index t 1 * 129 ≤ (i 1).val ∧ (i 1).val < win0_1.index t 1 * 129 + 129
    rw [e1]; omega

/-- THE ARRAY after the run is the row map of the argument. -/
theorem final (c : Dev nD) :
    (dats m 0 c).arrAt 1 cfg0.N = lift (R := 1048576) (m ((c : Thread nD τ).loc main_arg0)) :=
  (dats m 0 c).arrAt_eq_of_cover 1 (lift (R := 1048576) (V m c main_arg0)) (fun t _ => flushed_eq m c t) cover

/-- The kernel's run, read: the result array ends at the row map of the argument, the argument unchanged. -/
theorem run : θ_run defs (onTc (τ := τ) (main (F := Ideal))) ⟨m, fun _ => 0, ρ⟩ fun r => ∀ c : Dev nD,
      r.2.mem ((c : Thread nD τ).loc main_v0) = lift (R := 1048576) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelBlocks

end
-- ==== Proof.lean ====
/-
  The kernel and its reference compute the same map, row by row, on the extended reals.

  For a row `x` of 128 numbers let `|x|² = ∑ₖ xₖ²` and `s = -(1 - |x|²) / (1 + |x|²)`; the result row is
  `((1 - s)·x, s)`, 129 numbers (`Cert.RowMap.lift`). The reference computes it on the whole [1048576, 128] array with
  array operations (`Cert.ReferenceRows.result_eq`). The kernel walks a grid of 256 points; at each it loads a block of
  4096 rows, computes the same map of the block with the negation written `0 - ·` (`Cert.KernelRows.payload_eq`; on the
  extended reals `0 - a = -a` for every `a`, so nothing here needs the inputs finite), and writes the block of 4096
  result rows back. A result row depends on its own argument row only, so the blocks written are the blocks of the row
  map of the whole argument, and they cover the result (`Cert.KernelBlocks.run`). Both sums of squares add the same 128
  terms (the reference's from an initial zero), the two quotients are one function, and the literals are the same words.

  The three frames: the kernel's two are the generated frame runs; the reference's is its generated run with the result
  dropped. The idealization rewrote nothing, so there is nothing to preserve.
-/
import proofs.«176969_j77936476553267_1_alg».proof.Defs
import proofs.«176969_j77936476553267_1_alg».proof.Proof.Gen.Kernel
import proofs.«176969_j77936476553267_1_alg».proof.Proof.Gen.Kernel.Frame
import proofs.«176969_j77936476553267_1_alg».proof.Proof.Gen.KernelIdeal
import proofs.«176969_j77936476553267_1_alg».proof.Proof.Gen.KernelIdeal.Frame
import proofs.«176969_j77936476553267_1_alg».proof.Proof.Gen.KernelIdeal.Value
import proofs.«176969_j77936476553267_1_alg».proof.Proof.Gen.ReferenceIdeal
import proofs.«176969_j77936476553267_1_alg».proof.Proof.Gen.ReferenceIdeal.Run
import proofs.«176969_j77936476553267_1_alg».proof.Proof.Gen.ReferenceIdeal.Read
import proofs.«176969_j77936476553267_1_alg».proof.Proof.Gen.Pre_finite_inputs
import proofs.«176969_j77936476553267_1_alg».proof.Proof.RowMap
import proofs.«176969_j77936476553267_1_alg».proof.Proof.KernelRows
import proofs.«176969_j77936476553267_1_alg».proof.Proof.ReferenceRows
import proofs.«176969_j77936476553267_1_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs, and leaves its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the argument, both programs end with the result array at the row
    map of the argument. -/
theorem algebraic : Cert.algebraic_KernelIdeal_ReferenceIdeal := by
  intro m ρ m' ρ' _ hagree
  refine ⟨fun c => Cert.RowMap.lift (R := 1048576) (m ((c : Thread Cert.KernelIdeal.nD Cert.KernelIdeal.τ).loc Cert.KernelIdeal.main_arg0)),
    Cert.KernelBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceRows.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
